-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8x8192 : Shape := ⟨2, ![8, 8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn {F : FTy → Type} [FloatOps F] (main_arg0 : FVec F S8192x4096 .f32) (main_arg1 : FVec F S8x8192 .f32) (main_arg2 : FVec F S8x8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8x8192 .f32 := Host.absf main_arg1
  let main_cst_0 : FVec F S_ .f32 := constant S_ .f32 0x7F800000#32
  let main_v5 : FVec F S8x8192 .f32 := broadcastInDim S8x8192 ![] bcast_S_S8x8192 main_cst_0
  let main_v6 : IVec S8x8192 1 := cmpf .olt main_v4 main_v5
  let main_c_1 : IVec S_ 1 := constantI S_ 1 1#1
  let main_v7 : IVec S_ 1 := (fun x v => Host.reduce IntOp.andi x v reducesTo_S8x8192_S_d0_1 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  main_v13
-- ==== Kernel.lean ====
abbrev S8192x4096 : Shape := ⟨2, ![8192, 4096]⟩
abbrev S8x8192 : Shape := ⟨2, ![8, 8192]⟩
abbrev S8x4096 : Shape := ⟨2, ![8, 4096]⟩
abbrev S8x512 : Shape := ⟨2, ![8, 512]⟩
abbrev S512x2048 : Shape := ⟨2, ![512, 2048]⟩
abbrev S8x2048 : Shape := ⟨2, ![8, 2048]⟩
abbrev S512x4096 : Shape := ⟨2, ![512, 4096]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8x8192, .f32⟩
  | .hbm, ⟨2, _⟩ => ⟨S8x8192, .f32⟩
  | .hbm, ⟨3, _⟩ => ⟨S8x4096, .f32⟩
  | .hbm, ⟨4, _⟩ => ⟨S8192x4096, .f32⟩
  | .local _ .vmem, ⟨0, _⟩ => ⟨S8x512, .f32⟩
  | .local _ .vmem, ⟨1, _⟩ => ⟨S8x512, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S8x512, .f32⟩
  | .local _ .vmem, ⟨7, _⟩ => ⟨S8x512, .f32⟩
  | .local _ .vmem, ⟨8, _⟩ => ⟨S8x4096, .f32⟩
  | .local _ .vmem, ⟨9, _⟩ => ⟨S512x4096, .f32⟩
  | .local _ .vmem, ⟨10, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x2048_S8x2048_0_0 : ∀ a, (![0, 0] : Fin 2 → Nat) a + S8x2048.size a ≤ S8x2048.size a
  h_S8x2048 : 0 < S8x2048.numel
  inb_S8x512_S8x512_0_0 : ∀ a, (![0, 0] : Fin 2 → Nat) a + S8x512.size a ≤ S8x512.size a
  h_S8x512 : 0 < S8x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S8x2048_S8x2048 : S8x2048.ShapeCasts S8x2048
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S512x4096_S512x4096_0_0 : ∀ a, (![0, 0] : Fin 2 → Nat) a + S512x4096.size a ≤ S512x4096.size a
  h_S512x4096 : 0 < S512x4096.numel
  dot_S8x512_S512x2048_S8x2048_1_0_0_1_n_n_wf : DotDims.WF S8x512 S512x2048 S8x2048 [1] [0] [0] [1] [] []
  dot_S8x512_S8x4096_S512x4096_0_0_1_1_n_n_wf : DotDims.WF S8x512 S8x4096 S512x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x8192.size a
  hwx0_0 : ∀ i : grid0.Coords, EltTy.bits .f32 = 32 ∨ (Rect.block (s := S8x8192) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x4096.size a
  hwx0_1 : ∀ i : grid0.Coords, EltTy.bits .f32 = 32 ∨ (Rect.block (s := S8192x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x4096.size a
  hwx0_2 : ∀ i : grid0.Coords, EltTy.bits .f32 = 32 ∨ (Rect.block (s := S8x4096) S8x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S8x8192.size a
  hwx1_0 : ∀ i : grid1.Coords, EltTy.bits .f32 = 32 ∨ (Rect.block (s := S8x8192) S8x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096.size a ≤ S8x4096.size a
  hwx1_1 : ∀ i : grid1.Coords, EltTy.bits .f32 = 32 ∨ (Rect.block (s := S8x4096) S8x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S8192x4096.size a
  hwx1_2 : ∀ i : grid1.Coords, EltTy.bits .f32 = 32 ∨ (Rect.block (s := S8192x4096) S512x4096.size (cc1_transform_2 i) (hinb1_2 i)).WholeWords (EltTy.packing .f32)

variable [Facts₀]

def dot_S8x512_S512x2048_S8x2048_1_0_0_1_n_n : DotDims S8x512 S512x2048 S8x2048 where
  lhsContracting := [1]
  rhsContracting := [0]
  lhsNonContracting := [0]
  rhsNonContracting := [1]
  lhsBatch := []
  rhsBatch := []
  wf := dot_S8x512_S512x2048_S8x2048_1_0_0_1_n_n_wf
def dot_S8x512_S8x4096_S512x4096_0_0_1_1_n_n : DotDims S8x512 S8x4096 S512x4096 where
  lhsContracting := [0]
  rhsContracting := [0]
  lhsNonContracting := [1]
  rhsNonContracting := [1]
  lhsBatch := []
  rhsBatch := []
  wf := dot_S8x512_S8x4096_S512x4096_0_0_1_1_n_n_wf

abbrev win0_0 : Pipeline.Window sig grid0 :=
  Pipeline.Window.ofSpec (Memref.whole main_arg2) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S8x8192 : Shape := ⟨2, ![8, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8x8192, .f32⟩
  | .hbm, ⟨2, _⟩ => ⟨S8x8192, .f32⟩
  | .hbm, ⟨3, _⟩ => ⟨S8192x8192, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8x8192_S8x8192_S8192x8192_0_0_1_1_n_n_wf : DotDims.WF S8x8192 S8x8192 S8192x8192 [0] [0] [1] [1] [] []
  dot_S8192x8192_S8192x4096_S8192x4096_1_0_0_1_n_n_wf : DotDims.WF S8192x8192 S8192x4096 S8192x4096 [1] [0] [0] [1] [] []

variable [Facts₀]

def dot_S8x8192_S8x8192_S8192x8192_0_0_1_1_n_n : DotDims S8x8192 S8x8192 S8192x8192 where
  lhsContracting := [0]
  rhsContracting := [0]
  lhsNonContracting := [1]
  rhsNonContracting := [1]
  lhsBatch := []
  rhsBatch := []
  wf := dot_S8x8192_S8x8192_S8192x8192_0_0_1_1_n_n_wf
def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf

class Facts : Prop extends Facts₀ where

variable [Facts]
-- ==== Proof.RunNamed.lean ====
/-
  The kernel program's run, with its result array named.

  The program is two kernel launches in a row. Every weakly fair execution terminates, nothing faults, the three
  argument arrays end as launched, and the result array ends at what the second launch's write-backs leave in it,
  `W2 m ρ c` at the result's buffer: the buffers' contents after the second region, which are the first region's
  exit contents with the second region's arrays replaced by their final contents.
-/
import proofs.«158920_j44306882626256_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two launches terminates without a fault; the result array ends at the
    contents after the second region, and the arguments end as launched. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.RunNamed

end
-- ==== Proof.LowRankLaw.lean ====
/-
  The algebra behind a rank-R factorisation of a matrix product, and the bookkeeping of a sum taken block by block.

  * A weight matrix of the form  W[l, m] = Σ_r u[r, l] · v[r, m]  applied to a column x is
        Σ_m W[l, m] · x[m] = Σ_r u[r, l] · (Σ_m v[r, m] · x[m]),
    by distributing the products over the sums and exchanging the two sums. Over the reals this always holds
    (`real_factor`). Over the extended reals it holds when every entry is a real number (`ereal_factor`): each
    side is then the coercion of the real equation. (At infinite entries distributivity fails, so the hypothesis
    is needed.)
  * A sum over `K * T` consecutive naturals is the sum over `K` blocks of `T` consecutive naturals
    (`sum_blocks`), in any commutative additive monoid: no distributivity is involved.
  * The float word 0x00000000 is the number 0.
-/
import Idealize.ShloMosaic.PureOps.Ideal
import Idealize.ShloMosaic.PureOps.Ideal.Laws

noncomputable section

open scoped BigOperators

namespace Cert.LowRank

open Idealize.ShloMosaic

/-- The coercion of a finite sum of reals is the sum of the coercions. -/
theorem coe_sum {κ : Type*} (s : Finset κ) (f : κ → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- Over the reals: applying the factors one after the other is applying their product. -/
theorem real_factor {R M : Type*} [Fintype R] [Fintype M] (u : R → ℝ) (v : R → M → ℝ) (x : M → ℝ) :
    ∑ r, u r * ∑ k, v r k * x k = ∑ k, (∑ r, u r * v r k) * x k := by
  simp_rw [Finset.mul_sum, Finset.sum_mul]
  rw [Finset.sum_comm]
  exact Finset.sum_congr rfl fun k _ => Finset.sum_congr rfl fun r _ => by ring

/-- Over the extended reals, for entries that are real numbers: the same equation. -/
theorem ereal_factor {R M : Type*} [Fintype R] [Fintype M] (u : R → EReal) (v : R → M → EReal) (x : M → EReal)
    (hu : ∀ r, ∃ a : ℝ, u r = (a : EReal)) (hv : ∀ r k, ∃ a : ℝ, v r k = (a : EReal))
    (hx : ∀ k, ∃ a : ℝ, x k = (a : EReal)) :
    ∑ r, u r * ∑ k, v r k * x k = ∑ k, (∑ r, u r * v r k) * x k := by
  choose ur hur using hu
  choose vr hvr using hv
  choose xr hxr using hx
  obtain rfl : u = fun r => (ur r : EReal) := funext hur
  obtain rfl : v = fun r k => (vr r k : EReal) := funext fun r => funext (hvr r)
  obtain rfl : x = fun k => (xr k : EReal) := funext hxr
  simp only [← EReal.coe_mul, ← coe_sum]
  exact congrArg _ (real_factor ur vr xr)

/-- A sum over `K * T` consecutive naturals, taken as `K` blocks of `T`: block `k` holds `T * k + j` for `j < T`. -/
theorem sum_blocks {N : Type*} [AddCommMonoid N] (T : ℕ) (f : ℕ → N) :
    ∀ K : ℕ, ∑ k ∈ Finset.range K, ∑ j : Fin T, f (T * k + j.val) = ∑ n ∈ Finset.range (K * T), f n
  | 0 => by simp
  | K + 1 => by
    rw [Finset.sum_range_succ, sum_blocks T f K, Nat.succ_mul, Finset.sum_range_add, Nat.mul_comm T K]
    exact congrArg _ (Finset.sum_range fun x => f (K * T + x)).symm

/-- The float word of `0.0` is 0. -/
theorem ofBits_zero : Ideal.ofBits .f32 0x00000000#32 = 0 := Ideal.ofBits_zero_f32

end Cert.LowRank

end
-- ==== Proof.KernelPieces.lean ====
/-
  What each of the two kernel bodies leaves in its output block, as a function of the blocks it loads.

  The first kernel (the product V · inputs, accumulated over tiles of the long axis) stores, at every grid point,
  "what the output block held" + (V block) · (input block); at the first tile of a reduction it first overwrites the
  output block with zeros, so there the stored value is 0 + (V block) · (input block). Read at row r and column q
  over the extended reals (where rounding to bf16 is the identity) the product is the inner product
  Σ_j Vblock[r, j] · Xblock[j, q] over the 512 entries of the tile.

  The second kernel (the product Uᵀ · T) stores (U block)ᵀ · T, whose entry at row l and column b is
  Σ_r Ublock[r, l] · T[r, b] over the 8 ranks.
-/
import proofs.«158920_j44306882626256_2_alg».proof.Proof.Gen.KernelIdeal.Frame
import proofs.«158920_j44306882626256_2_alg».proof.Proof.LowRankLaw
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx (ix2 eq_ix2)

namespace Cert.KernelIdeal.Pieces

open Cert.KernelIdeal Cert.KernelIdeal.Gen

/-! ## The four arrays a region reads, as it finds them, typed as functions of a literal index into the extended reals -/

section Arrays
variable (V : (c : Dev nD) → (b : Ref sig .tc) → Buf (Elt Ideal) ((c : Thread nD τ).loc b)) (c : Dev nD)
/-- inputs, [8192, 4096]. -/
abbrev arrX : S8192x4096.Idx → EReal := V c main_arg0
/-- U, [8, 8192]. -/
abbrev arrU : S8x8192.Idx → EReal := V c main_arg1
/-- V, [8, 8192]. -/
abbrev arrV : S8x8192.Idx → EReal := V c main_arg2
/-- T, [8, 4096]: the first kernel's result, the second kernel's operand. -/
abbrev arrT : S8x4096.Idx → EReal := V c main_v0
end Arrays

/-- The offsets of every load and store of the two bodies: the whole block. -/
theorem hz : (![0, 0] : Fin 2 → Nat) = fun _ => 0 := funext fun a => by fin_cases a <;> rfl

section AnyF
variable {F : FTy → Type} [FloatOps F]

/-- Away from the first tile of a reduction, the first kernel's one store covers its output block: the block ends at
    the stored value, computed from the two input blocks and from what the output block held. -/
theorem out_B (c : Dev nD) (i : grid0.Coords) (a2 : Memref sig .tc .vmem S8x512 .f32) (h2 : a2.IsWhole)
    (a3 : Memref sig .tc .vmem S512x2048 .f32) (h3 : a3.IsWhole) (a4 : Memref sig .tc .vmem S8x2048 .f32) (h4 : a4.IsWhole)
    (hc : ¬cond0_0 i) (x0 : Vec F S8x512 .f32) (x1 : Vec F S512x2048 .f32) (xo : Vec F S8x2048 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S8x512) hz,
    View.ld_unit_zero (S := S512x2048) hz, View.ld_unit_zero (S := S8x2048) hz]

/-- At the first tile of a reduction the body first stores the zero block and reads it back: the block ends at the
    stored value computed over the zero block. -/
theorem out_A (c : Dev nD) (i : grid0.Coords) (a2 : Memref sig .tc .vmem S8x512 .f32) (h2 : a2.IsWhole)
    (a3 : Memref sig .tc .vmem S512x2048 .f32) (h3 : a3.IsWhole) (a4 : Memref sig .tc .vmem S8x2048 .f32) (h4 : a4.IsWhole)
    (hc : cond0_0 i) (x0 : Vec F S8x512 .f32) (x1 : Vec F S512x2048 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x2048) hz, View.readCov_unit_zero (S := S8x2048) _ hz]
  simp only [View.readAt_eq_ld, h2.read_unread, h3.read_unread, View.ld_unit_zero (S := S8x512) hz,
    View.ld_unit_zero (S := S512x2048) hz, View.ld_unit_zero (S := S8x2048) hz]

/-- The second kernel's one store covers its output block with the stored value of the two input blocks. -/
theorem out_O (x0 : Vec F S8x512 .f32) (x1 : Vec F S8x4096 .f32) : out1_2 x0 x1 = k1_pay1 x0 x1 := by
  unfold out1_2
  rw [View.canon_unit_zero hz]
  simp only [View.ld_unit_zero (S := S8x512) hz, View.ld_unit_zero (S := S8x4096) hz]

end AnyF

/-! ## The first kernel's product: rows of the V block against columns of the input block -/

abbrev dT : DotDims S8x512 S512x2048 S8x2048 := dot_S8x512_S512x2048_S8x2048_1_0_0_1_n_n
abbrev dO : DotDims S8x512 S8x4096 S512x4096 := dot_S8x512_S8x4096_S512x4096_0_0_1_1_n_n

theorem dT_lhs0 (i : S8x2048.Idx) (q : dT.contr.Idx) : (dT.lhsIdx i q 0).val = (i 0).val := by
  unfold DotDims.lhsIdx
  rw [dif_neg (show ¬(0 : Fin S8x512.rank) ∈ dT.lhsBatch by decide), dif_pos (show (0 : Fin S8x512.rank) ∈ dT.lhsNonContracting by decide)]
  rfl
theorem dT_lhs1 (i : S8x2048.Idx) (q : dT.contr.Idx) : (dT.lhsIdx i q 1).val = (q ⟨0, by decide⟩).val :=
  dT.lhsIdx_val_of_single rfl i q
theorem dT_rhs0 (i : S8x2048.Idx) (q : dT.contr.Idx) : (dT.rhsIdx i q 0).val = (q ⟨0, by decide⟩).val :=
  dT.rhsIdx_val_of_single rfl i q
theorem dT_rhs1 (i : S8x2048.Idx) (q : dT.contr.Idx) : (dT.rhsIdx i q 1).val = (i 1).val := by
  unfold DotDims.rhsIdx
  rw [dif_neg (show ¬(1 : Fin S512x2048.rank) ∈ dT.rhsBatch by decide), dif_pos (show (1 : Fin S512x2048.rank) ∈ dT.rhsNonContracting by decide)]
  rfl

/-- The first kernel's stored value at row r, column q: what the block held there plus the inner product of row r of
    the V block with column q of the input block. -/
theorem pay2_apply (x0 : Vec Ideal S8x512 .f32) (x1 : Vec Ideal S512x2048 .f32) (xo : Vec Ideal S8x2048 .f32)
    (r : Fin 8) (q : Fin 2048) :
    k0_pay2 (F := Ideal) x0 x1 xo (ix2 r q) = xo (ix2 r q) + ∑ j : Fin 512, x0 (ix2 r j) * x1 (ix2 j q) := by
  unfold k0_pay2
  rw [ValueIdx.addf_apply, shapeCast_self]
  refine congrArg (xo (ix2 r q) + ·) ?_
  refine (Ideal.matmul_constant_zero_apply dT none _ _ (ix2 r q)).trans ?_
  rw [← Equiv.sum_comp (ValueIdx.contrEquiv1 dT 512 rfl rfl).symm]
  refine Finset.sum_congr rfl fun k _ => ?_
  have hk := ValueIdx.contrEquiv1_symm_val dT 512 rfl rfl k
  have el : dT.lhsIdx (ix2 r q) ((ValueIdx.contrEquiv1 dT 512 rfl rfl).symm k) = ix2 r k := funext fun a => Fin.ext (by
    match a with
    | ⟨0, _⟩ => exact dT_lhs0 _ _
    | ⟨1, _⟩ => exact (dT_lhs1 _ _).trans hk)
  have er : dT.rhsIdx (ix2 r q) ((ValueIdx.contrEquiv1 dT 512 rfl rfl).symm k) = ix2 k q := funext fun a => Fin.ext (by
    match a with
    | ⟨0, _⟩ => exact (dT_rhs0 _ _).trans hk
    | ⟨1, _⟩ => exact dT_rhs1 _ _)
  rw [el, er]
  rfl

/-- The zero block the first tile stores: 0 at every entry. -/
theorem pay1_apply (y : S8x2048.Idx) : k0_pay1 (F := Ideal) y = 0 := Cert.LowRank.ofBits_zero

/-! ## The second kernel's product: columns of the U block against columns of T -/

theorem dO_lhs0 (i : S512x4096.Idx) (q : dO.contr.Idx) : (dO.lhsIdx i q 0).val = (q ⟨0, by decide⟩).val :=
  dO.lhsIdx_val_of_single rfl i q
theorem dO_lhs1 (i : S512x4096.Idx) (q : dO.contr.Idx) : (dO.lhsIdx i q 1).val = (i 0).val := by
  unfold DotDims.lhsIdx
  rw [dif_neg (show ¬(1 : Fin S8x512.rank) ∈ dO.lhsBatch by decide), dif_pos (show (1 : Fin S8x512.rank) ∈ dO.lhsNonContracting by decide)]
  rfl
theorem dO_rhs0 (i : S512x4096.Idx) (q : dO.contr.Idx) : (dO.rhsIdx i q 0).val = (q ⟨0, by decide⟩).val :=
  dO.rhsIdx_val_of_single rfl i q
theorem dO_rhs1 (i : S512x4096.Idx) (q : dO.contr.Idx) : (dO.rhsIdx i q 1).val = (i 1).val := by
  unfold DotDims.rhsIdx
  rw [dif_neg (show ¬(1 : Fin S8x4096.rank) ∈ dO.rhsBatch by decide), dif_pos (show (1 : Fin S8x4096.rank) ∈ dO.rhsNonContracting by decide)]
  rfl

/-- The second kernel's stored value at row l, column b: the sum over the 8 ranks of U block[r, l] · T[r, b]. -/
theorem payO_apply (x0 : Vec Ideal S8x512 .f32) (x1 : Vec Ideal S8x4096 .f32) (l : Fin 512) (b : Fin 4096) :
    k1_pay1 (F := Ideal) x0 x1 (ix2 l b) = ∑ r : Fin 8, x0 (ix2 r l) * x1 (ix2 r b) := by
  unfold k1_pay1
  refine (Ideal.matmul_constant_zero_apply dO none _ _ (ix2 l b)).trans ?_
  rw [← Equiv.sum_comp (ValueIdx.contrEquiv1 dO 8 rfl rfl).symm]
  refine Finset.sum_congr rfl fun k _ => ?_
  have hk := ValueIdx.contrEquiv1_symm_val dO 8 rfl rfl k
  have el : dO.lhsIdx (ix2 l b) ((ValueIdx.contrEquiv1 dO 8 rfl rfl).symm k) = ix2 k l := funext fun a => Fin.ext (by
    match a with
    | ⟨0, _⟩ => exact (dO_lhs0 _ _).trans hk
    | ⟨1, _⟩ => exact dO_lhs1 _ _)
  have er : dO.rhsIdx (ix2 l b) ((ValueIdx.contrEquiv1 dO 8 rfl rfl).symm k) = ix2 k b := funext fun a => Fin.ext (by
    match a with
    | ⟨0, _⟩ => exact (dO_rhs0 _ _).trans hk
    | ⟨1, _⟩ => exact dO_rhs1 _ _)
  rw [el, er]
  show x0 (ix2 k l) * (shapeCast S8x4096 x1 shapeCasts_S8x4096_S8x4096) (ix2 k b) = _
  rw [shapeCast_self]

end Cert.KernelIdeal.Pieces

end
-- ==== Proof.TStage.lean ====
/-
  The first kernel's result: T = V · inputs.

  Its grid is 2 column tiles × 16 tiles of the long axis; the output block of a column tile stays in place over the
  16 reduction points, is reset at the first of them and written back after the last. So after the point
  n = 16·b + s the block holds the sum of the first s + 1 tile products of column tile b
  (`outsAt_apply`, by induction on the point), after the last point of the run the whole inner product over the
  8192 entries of the long axis (`T_at_flush`: 16 blocks of 512 consecutive indices are the 8192 indices), and the
  array the region leaves is T[r, b] = Σ_m V[r, m] · inputs[m, b] (`finalT`). Only commutativity and associativity
  of the sum are used, so this holds over all extended reals.
-/
import proofs.«158920_j44306882626256_2_alg».proof.Proof.KernelPieces
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx (ix2 eq_ix2)

namespace Cert.KernelIdeal.TStage

open Cert.KernelIdeal Cert.KernelIdeal.Gen Cert.KernelIdeal.Pieces

variable (V : (c : Dev nD) → (b : Ref sig .tc) → Buf (Elt Ideal) ((c : Thread nD τ).loc b)) (c : Dev nD)

/-- V[r, m] as the region finds it, and 0 past the array (never used there). -/
def vN (r : Fin 8) (m : ℕ) : EReal :=
  if h : m < 8192 then arrV V c (ix2 r ⟨m, h⟩) else 0
/-- inputs[m, b] as the region finds it, and 0 past the array (never used there). -/
def xN (m b : ℕ) : EReal :=
  if h : m < 8192 ∧ b < 4096 then arrX V c (ix2 ⟨m, h.1⟩ ⟨b, h.2⟩) else 0

/-- The block indices of the three windows at point t: tile t % 16 of the long axis, column tile t / 16. -/
theorem idx0 : ∀ t : Fin cfg0.N, win0_0.index t (0 : Fin 2) = 0 ∧ win0_0.index t (1 : Fin 2) = t.val % 16
    ∧ win0_1.index t (0 : Fin 2) = t.val % 16 ∧ win0_1.index t (1 : Fin 2) = t.val / 16
    ∧ win0_2.index t (0 : Fin 2) = 0 ∧ win0_2.index t (1 : Fin 2) = t.val / 16 :=
  (by decide +kernel : ∀ t : Fin grid0.N, _)

/-- The V block at point t: columns 512·(t % 16) + j. -/
theorem blkV (t : Fin cfg0.N) (r : Fin 8) (j : Fin 512) :
    (iblk0 V c 0 t : Vec Ideal S8x512 .f32) (ix2 r j) = vN V c r (512 * (t.val % 16) + j.val) := by
  have hN : t.val < 32 := lt_of_lt_of_eq t.isLt (show cfg0.N = 32 from N_0)
  obtain ⟨e0, e1, -⟩ := idx0 t
  have hb : 512 * (t.val % 16) + j.val < 8192 := by have := j.isLt; omega
  unfold iblk0 vN
  rw [View.read_apply, dif_pos hb]
  show arrV V c (((cfg0.win 0).blk t).view.emb (ix2 r j)) = arrV V c (ix2 r ⟨512 * (t.val % 16) + j.val, hb⟩)
  refine congrArg (arrV V c) (funext fun a => Fin.ext ?_)
  match a with
  | ⟨0, _⟩ => show win0_0.index t (0 : Fin 2) * 8 + 1 * r.val = r.val; omega
  | ⟨1, _⟩ => show win0_0.index t (1 : Fin 2) * 512 + 1 * j.val = 512 * (t.val % 16) + j.val; omega

/-- The input block at point t: rows 512·(t % 16) + j, columns 2048·(t / 16) + q. -/
theorem blkX (t : Fin cfg0.N) (j : Fin 512) (q : Fin 2048) :
    (iblk0 V c 1 t : Vec Ideal S512x2048 .f32) (ix2 j q) = xN V c (512 * (t.val % 16) + j.val) (2048 * (t.val / 16) + q.val) := by
  have hN : t.val < 32 := lt_of_lt_of_eq t.isLt (show cfg0.N = 32 from N_0)
  obtain ⟨-, -, e2, e3, -⟩ := idx0 t
  have hb : 512 * (t.val % 16) + j.val < 8192 ∧ 2048 * (t.val / 16) + q.val < 4096 := by
    have := j.isLt; have := q.isLt; omega
  unfold iblk0 xN
  rw [View.read_apply, dif_pos hb]
  show arrX V c (((cfg0.win 1).blk t).view.emb (ix2 j q)) = arrX V c (ix2 ⟨512 * (t.val % 16) + j.val, hb.1⟩ ⟨2048 * (t.val / 16) + q.val, hb.2⟩)
  refine congrArg (arrX V c) (funext fun a => Fin.ext ?_)
  match a with
  | ⟨0, _⟩ => show win0_1.index t (0 : Fin 2) * 512 + 1 * j.val = 512 * (t.val % 16) + j.val; omega
  | ⟨1, _⟩ => show win0_1.index t (1 : Fin 2) * 2048 + 1 * q.val = 2048 * (t.val / 16) + q.val; omega

/-- What point n adds to entry (r, q) of its output block: the tile's inner product. -/
def addend (n : ℕ) (r : Fin 8) (q : Fin 2048) : EReal :=
  ∑ j : Fin 512, vN V c r (512 * (n % 16) + j.val) * xN V c (512 * (n % 16) + j.val) (2048 * (n / 16) + q.val)

/-- A tile product of two blocks that read V and the inputs at point n's offsets is point n's addend. -/
theorem point_sum (x0 : Vec Ideal S8x512 .f32) (x1 : Vec Ideal S512x2048 .f32) (n : ℕ) (r : Fin 8) (q : Fin 2048)
    (h0 : ∀ j : Fin 512, x0 (ix2 r j) = vN V c r (512 * (n % 16) + j.val))
    (h1 : ∀ j : Fin 512, x1 (ix2 j q) = xN V c (512 * (n % 16) + j.val) (2048 * (n / 16) + q.val)) :
    ∑ j : Fin 512, x0 (ix2 r j) * x1 (ix2 j q) = addend V c n r q :=
  Finset.sum_congr rfl fun j _ => by rw [h0, h1]

/-- After point n = 16·b + s the output block holds the sum of the tile products of points 16·b … 16·b + s. -/
theorem outsAt_apply (r : Fin 8) (q : Fin 2048) : ∀ (n : ℕ) (h : n < cfg0.N),
    outsAt0 V c n h (ix2 r q) = ∑ s ∈ Finset.range (n % 16 + 1), addend V c (16 * (n / 16) + s) r q
  | 0, h => by
    rw [outsAt0_A V c ⟨0, h⟩ rfl, out_A, pay2_apply, pay1_apply, zero_add, point_sum V c (iblk0 V c 0 ⟨0, h⟩) (iblk0 V c 1 ⟨0, h⟩) 0 r q (blkV V c ⟨0, h⟩ r) (fun j => blkX V c ⟨0, h⟩ j q)]
    show addend V c 0 r q = ∑ s ∈ Finset.range 1, addend V c (0 + s) r q
    rw [Finset.sum_range_one]
  | n + 1, h => by
    by_cases h0 : (n + 1) % 16 = 0
    · rw [outsAt0_A V c ⟨n + 1, h⟩ h0, out_A, pay2_apply, pay1_apply, zero_add, point_sum V c (iblk0 V c 0 ⟨n + 1, h⟩) (iblk0 V c 1 ⟨n + 1, h⟩) (n + 1) r q (blkV V c ⟨n + 1, h⟩ r) (fun j => blkX V c ⟨n + 1, h⟩ j q)]
      show addend V c (n + 1) r q = _
      rw [h0, Finset.sum_range_one, show 16 * ((n + 1) / 16) + 0 = n + 1 from by omega]
    · rw [outsAt0_B V c ⟨n + 1, h⟩ h0, out_B, pay2_apply, point_sum V c (iblk0 V c 0 ⟨n + 1, h⟩) (iblk0 V c 1 ⟨n + 1, h⟩) (n + 1) r q (blkV V c ⟨n + 1, h⟩ r) (fun j => blkX V c ⟨n + 1, h⟩ j q)]
      show outsAt0 V c n _ (ix2 r q) + addend V c (n + 1) r q = _
      rw [outsAt_apply r q n, show (n + 1) % 16 = n % 16 + 1 from by omega, show (n + 1) / 16 = n / 16 from by omega,
        Finset.sum_range_succ _ (n % 16 + 1), show 16 * (n / 16) + (n % 16 + 1) = n + 1 from by omega]

/-- T[r, b]: row r of V against column b of the inputs, over the whole long axis. -/
def Tval (r : Fin 8) (b : Fin 4096) : EReal :=
  ∑ k : Fin 8192, arrV V c (ix2 r k) * arrX V c (ix2 k b)

/-- The array T as a function of its index. -/
def Tfun : S8x4096.Idx → EReal := fun i => Tval V c ⟨(i 0).val, (i 0).isLt⟩ ⟨(i 1).val, (i 1).isLt⟩

/-- At the last point of a reduction the output block holds the whole inner products. -/
theorem T_at_flush (t : Fin cfg0.N) (ht : t.val % 16 = 15) (r : Fin 8) (q : Fin 2048) (hb : 2048 * (t.val / 16) + q.val < 4096) :
    outsAt0 V c t.val t.isLt (ix2 r q) = Tval V c r ⟨2048 * (t.val / 16) + q.val, hb⟩ := by
  rw [outsAt_apply V c r q t.val t.isLt, ht]
  have e : ∀ s ∈ Finset.range (15 + 1), addend V c (16 * (t.val / 16) + s) r q
      = ∑ j : Fin 512, (fun k => vN V c r k * xN V c k (2048 * (t.val / 16) + q.val)) (512 * s + j.val) := fun s hs => by
    have hs' : s < 16 := Finset.mem_range.mp hs
    unfold addend
    rw [show (16 * (t.val / 16) + s) % 16 = s from by omega, show (16 * (t.val / 16) + s) / 16 = t.val / 16 from by omega]
  refine (Finset.sum_congr rfl e).trans ?_
  refine (Cert.LowRank.sum_blocks 512 (fun k => vN V c r k * xN V c k (2048 * (t.val / 16) + q.val)) 16).trans ?_
  rw [Finset.sum_range]
  unfold Tval
  refine Finset.sum_congr rfl fun k _ => ?_
  show vN V c r k.val * xN V c k.val (2048 * (t.val / 16) + q.val) = _
  unfold vN xN
  rw [dif_pos k.isLt, dif_pos ⟨k.isLt, hb⟩]

/-- What a write-back writes is the block of T under it. -/
theorem flushedT (t : Fin cfg0.N) (hf : (cfg0.win 2).flush t = true) :
    (dat0 V c).flushed 2 t = ((cfg0.win 2).blk t).view.read (Elt Ideal) (Tfun V c) := by
  have hN : t.val < 32 := lt_of_lt_of_eq t.isLt (show cfg0.N = 32 from N_0)
  have ht : t.val % 16 = 15 := (flush0_2 t).mp hf
  obtain ⟨-, -, -, -, e4, e5⟩ := idx0 t
  show (cfg0.win 2).cut (grid0.coords t) ((dat0 V c).after 2 t) = _
  rw [after0_2]
  funext y
  obtain ⟨r, q, rfl⟩ : ∃ (r : Fin 8) (q : Fin 2048), y = ix2 r q := ⟨y 0, y 1, eq_ix2 y⟩
  rw [View.read_apply]
  have hb : 2048 * (t.val / 16) + q.val < 4096 := by have := q.isLt; omega
  show outsAt0 V c t.val t.isLt (ix2 r q) = Tfun V c (((cfg0.win 2).blk t).view.emb (ix2 r q))
  rw [T_at_flush V c t ht r q hb]
  unfold Tfun
  refine congrArg₂ (Tval V c) (Fin.ext ?_) (Fin.ext ?_)
  · show r.val = win0_2.index t (0 : Fin 2) * 8 + 1 * r.val; omega
  · show 2048 * (t.val / 16) + q.val = win0_2.index t (1 : Fin 2) * 2048 + 1 * q.val; omega

/-- An index of T lies in point t's block iff each coordinate lies in the block's range on its axis. -/
theorem mem_blkT (t : Fin cfg0.N) (i : S8x4096.Idx) :
    i ∈ ((cfg0.win 2).blk t).view.set ↔ ∀ a : Fin 2, win0_2.index t a * S8x2048.size a ≤ (i a).val ∧ (i a).val < win0_2.index t a * S8x2048.size a + S8x2048.size a := by
  show i ∈ ((View.whole main_v0).slice (win0_2.rect t)).set ↔ _
  rw [View.set_slice_whole, Rect.mem_set_unit]
  exact Iff.rfl

/-- Every entry of T is written back by the last point of its column tile's reduction. -/
theorem coverT (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hN : cfg0.N = 32 := N_0
  let t : Fin cfg0.N := ⟨16 * ((i 1).val / 2048) + 15, by rw [hN]; omega⟩
  have htv : t.val = 16 * ((i 1).val / 2048) + 15 := rfl
  obtain ⟨-, -, -, -, e4, e5⟩ := idx0 t
  refine ⟨t, (flush0_2 t).mpr (by omega), ?_⟩
  rw [mem_blkT]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 2048 ≤ (i 1).val ∧ (i 1).val < win0_2.index t (1 : Fin 2) * 2048 + 2048; omega

/-- The array the first region leaves: T = V · inputs of the arrays it found. -/
theorem finalT : (dat0 V c).arrAt 2 cfg0.N = Tfun V c :=
  (dat0 V c).arrAt_eq_of_cover 2 (Tfun V c) (flushedT V c) (coverT)

end Cert.KernelIdeal.TStage

end
-- ==== Proof.OStage.lean ====
/-
  The second kernel's result: out = Uᵀ · T.

  Its grid is the 16 row tiles of the output; point t loads columns 512·t … 512·t + 511 of U and the whole of T, and
  stores rows 512·t … 512·t + 511 of the output, written back at every point. So the array the region leaves is
  out[l, b] = Σ_r U[r, l] · T[r, b] of the arrays it found (`finalO`).
-/
import proofs.«158920_j44306882626256_2_alg».proof.Proof.KernelPieces
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx (ix2 eq_ix2)

namespace Cert.KernelIdeal.OStage

open Cert.KernelIdeal Cert.KernelIdeal.Gen Cert.KernelIdeal.Pieces

variable (V : (c : Dev nD) → (b : Ref sig .tc) → Buf (Elt Ideal) ((c : Thread nD τ).loc b)) (c : Dev nD)

/-- The block indices of the three windows at point t: column tile t of U, the whole of T, row tile t of the output. -/
theorem idx1 : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- out[l, b]: column l of U against column b of T. -/
def Oval (l : Fin 8192) (b : Fin 4096) : EReal :=
  ∑ r : Fin 8, arrU V c (ix2 r l) * arrT V c (ix2 r b)

/-- The output array as a function of its index. -/
def Ofun : S8192x4096.Idx → EReal := fun i => Oval V c ⟨(i 0).val, (i 0).isLt⟩ ⟨(i 1).val, (i 1).isLt⟩

/-- The U block at point t: columns 512·t + l. -/
theorem blkU (t : Fin cfg1.N) (r : Fin 8) (l : Fin 512) (hb : 512 * t.val + l.val < 8192) :
    (iblk1 V c 0 t : Vec Ideal S8x512 .f32) (ix2 r l) = arrU V c (ix2 r ⟨512 * t.val + l.val, hb⟩) := by
  obtain ⟨e0, e1, -⟩ := idx1 t
  unfold iblk1
  rw [View.read_apply]
  show arrU V c (((cfg1.win 0).blk t).view.emb (ix2 r l)) = _
  refine congrArg (arrU V c) (funext fun a => Fin.ext ?_)
  match a with
  | ⟨0, _⟩ => show win1_0.index t (0 : Fin 2) * 8 + 1 * r.val = r.val; omega
  | ⟨1, _⟩ => show win1_0.index t (1 : Fin 2) * 512 + 1 * l.val = 512 * t.val + l.val; omega

/-- The T block at every point: the whole array. -/
theorem blkT (t : Fin cfg1.N) (r : Fin 8) (b : Fin 4096) :
    (iblk1 V c 1 t : Vec Ideal S8x4096 .f32) (ix2 r b) = arrT V c (ix2 r b) := by
  obtain ⟨-, -, e2, e3, -⟩ := idx1 t
  unfold iblk1
  rw [View.read_apply]
  show arrT V c (((cfg1.win 1).blk t).view.emb (ix2 r b)) = _
  refine congrArg (arrT V c) (funext fun a => Fin.ext ?_)
  match a with
  | ⟨0, _⟩ => show win1_1.index t (0 : Fin 2) * 8 + 1 * r.val = r.val; omega
  | ⟨1, _⟩ => show win1_1.index t (1 : Fin 2) * 4096 + 1 * b.val = b.val; omega

/-- What a write-back writes is the block of the output under it. -/
theorem flushedO (t : Fin cfg1.N) (hf : (cfg1.win 2).flush t = true) :
    (dat1 V c).flushed 2 t = ((cfg1.win 2).blk t).view.read (Elt Ideal) (Ofun V c) := by
  have hN : t.val < 16 := lt_of_lt_of_eq t.isLt (show cfg1.N = 16 from N_1)
  obtain ⟨-, -, -, -, e4, e5⟩ := idx1 t
  show (cfg1.win 2).cut (grid1.coords t) ((dat1 V c).after 2 t) = _
  rw [after1_2, out_O]
  funext y
  obtain ⟨l, b, rfl⟩ : ∃ (l : Fin 512) (b : Fin 4096), y = ix2 l b := ⟨y 0, y 1, eq_ix2 y⟩
  rw [View.read_apply]
  have hb : 512 * t.val + l.val < 8192 := by have := l.isLt; omega
  show k1_pay1 (F := Ideal) (iblk1 V c 0 t) (iblk1 V c 1 t) (ix2 l b) = Ofun V c (((cfg1.win 2).blk t).view.emb (ix2 l b))
  rw [payO_apply]
  unfold Ofun Oval
  refine Finset.sum_congr rfl fun r _ => ?_
  rw [blkU V c t r l hb, blkT V c t r b]
  refine congrArg₂ (fun (a : Fin 8192) (d : Fin 4096) => arrU V c (ix2 r a) * arrT V c (ix2 r d)) (Fin.ext ?_) (Fin.ext ?_)
  · show 512 * t.val + l.val = win1_2.index t (0 : Fin 2) * 512 + 1 * l.val; omega
  · show b.val = win1_2.index t (1 : Fin 2) * 4096 + 1 * b.val; omega

/-- An index of the output lies in point t's block iff each coordinate lies in the block's range on its axis. -/
theorem mem_blkO (t : Fin cfg1.N) (i : S8192x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v1).slice (win1_2.rect t)).set ↔ _
  rw [View.set_slice_whole, Rect.mem_set_unit]
  exact Iff.rfl

/-- Every entry of the output is written back by the point of its row tile. -/
theorem coverO (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hN : cfg1.N = 16 := N_1
  let t : Fin cfg1.N := ⟨(i 0).val / 512, by rw [hN]; omega⟩
  have htv : t.val = (i 0).val / 512 := rfl
  obtain ⟨-, -, -, -, e4, e5⟩ := idx1 t
  refine ⟨t, flush1_2 t, ?_⟩
  rw [mem_blkO]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 4096 ≤ (i 1).val ∧ (i 1).val < win1_2.index t (1 : Fin 2) * 4096 + 4096; omega

/-- The array the second region leaves: out = Uᵀ · T of the arrays it found. -/
theorem finalO : (dat1 V c).arrAt 2 cfg1.N = Ofun V c :=
  (dat1 V c).arrAt_eq_of_cover 2 (Ofun V c) (flushedO V c) (coverO)

end Cert.KernelIdeal.OStage

end
-- ==== Proof.LowRankSpec.lean ====
/-
  The two ways of applying a rank-8 weight matrix to a batch of columns, entry by entry over the extended reals.

  With U, V of shape [8, 8192] and inputs of shape [8192, 4096]:
    factored[l, b] = Σ_r U[r, l] · (Σ_m V[r, m] · inputs[m, b])        (first T = V · inputs, then Uᵀ · T)
    direct[l, b]   = Σ_m (Σ_r U[r, l] · V[r, m]) · inputs[m, b]        (first W = Uᵀ · V, then W · inputs)
  They agree when every entry of the three arrays is a real number (`factored_eq_direct`).
-/
import proofs.«158920_j44306882626256_2_alg».proof.Proof.LowRankLaw
import Idealize.ShloMosaic.Lib.ValueIdx

noncomputable section

open scoped BigOperators

namespace Cert.LowRank

open Idealize.ShloMosaic
open Idealize.ShloMosaic.ValueIdx (ix2)

abbrev SX : Shape := ⟨2, ![8192, 4096]⟩
abbrev SUV : Shape := ⟨2, ![8, 8192]⟩

/-- Σ_r U[r, l] · (Σ_m V[r, m] · inputs[m, b]). -/
def factored (x : SX.Idx → EReal) (u v : SUV.Idx → EReal) : SX.Idx → EReal := fun i =>
  ∑ r : Fin 8, u (ix2 r (⟨(i 0).val, (i 0).isLt⟩ : Fin 8192))
    * ∑ k : Fin 8192, v (ix2 r k) * x (ix2 k (⟨(i 1).val, (i 1).isLt⟩ : Fin 4096))

/-- Σ_m (Σ_r U[r, l] · V[r, m]) · inputs[m, b]. -/
def direct (x : SX.Idx → EReal) (u v : SUV.Idx → EReal) : SX.Idx → EReal := fun i =>
  ∑ k : Fin 8192, (∑ r : Fin 8, u (ix2 r (⟨(i 0).val, (i 0).isLt⟩ : Fin 8192)) * v (ix2 r k))
    * x (ix2 k (⟨(i 1).val, (i 1).isLt⟩ : Fin 4096))

/-- On arrays of real numbers the two agree. -/
theorem factored_eq_direct (x : SX.Idx → EReal) (u v : SUV.Idx → EReal)
    (hx : ∀ i, ∃ a : ℝ, x i = (a : EReal)) (hu : ∀ i, ∃ a : ℝ, u i = (a : EReal)) (hv : ∀ i, ∃ a : ℝ, v i = (a : EReal)) :
    factored x u v = direct x u v :=
  funext fun i => ereal_factor (fun r : Fin 8 => u (ix2 r (⟨(i 0).val, (i 0).isLt⟩ : Fin 8192)))
    (fun (r : Fin 8) (k : Fin 8192) => v (ix2 r k)) (fun k : Fin 8192 => x (ix2 k (⟨(i 1).val, (i 1).isLt⟩ : Fin 4096)))
    (fun r => hu _) (fun r k => hv _) (fun k => hx _)

end Cert.LowRank

end
-- ==== Proof.KernelWhole.lean ====
/-
  The kernel program's result as one function of its arguments.

  The result array ends at what the second region leaves: out = Uᵀ · T of the arrays that region finds. It finds U
  as launched (the first region does not touch it) and T at what the first region leaves: T = V · inputs of the
  arrays as launched. So the result is  out[l, b] = Σ_r U[r, l] · (Σ_m V[r, m] · inputs[m, b]).
-/
import proofs.«158920_j44306882626256_2_alg».proof.Proof.RunNamed
import proofs.«158920_j44306882626256_2_alg».proof.Proof.TStage
import proofs.«158920_j44306882626256_2_alg».proof.Proof.OStage
import proofs.«158920_j44306882626256_2_alg».proof.Proof.LowRankSpec

noncomputable section

open Idealize.ShloMosaic Idealize.ShloMosaic.TcCoe Idealize.SL.Sem
open Idealize.ShloMosaic.ValueIdx (ix2 eq_ix2)

namespace Cert.KernelIdeal.Whole

open Cert.KernelIdeal Cert.KernelIdeal.Gen Cert.KernelIdeal.Pieces

variable (m : (ℓ : Loc nD τ sig) → Buf (Elt Ideal) ℓ) (ρ : Dev nD → PrngReg)

/-- The second region finds U as launched. -/
theorem U_entry (c : Dev nD) : arrU (V1 m ρ) c = m ((c.tc : Thread nD τ).loc main_arg1) :=
  W1_of_ne m ρ c main_arg1 (by decide)

/-- The second region finds T at what the first region leaves. -/
theorem T_entry (c : Dev nD) : arrT (V1 m ρ) c = TStage.Tfun (V0 m ρ) c :=
  (W1_arr m ρ c 2).trans (TStage.finalT (V0 m ρ) c)

/-- The result array after the run, entry by entry. -/
theorem result_eq (c : Dev nD) : W2 m ρ c (Proc.devRef .tc main_v1)
    = Cert.LowRank.factored (m ((c.tc : Thread nD τ).loc main_arg0)) (m ((c.tc : Thread nD τ).loc main_arg1))
        (m ((c.tc : Thread nD τ).loc main_arg2)) := by
  refine (W2_arr m ρ c 2).trans ((OStage.finalO (V1 m ρ) c).trans ?_)
  funext i
  unfold OStage.Ofun OStage.Oval Cert.LowRank.factored
  refine Finset.sum_congr rfl fun r _ => ?_
  rw [U_entry m ρ c, T_entry m ρ c]
  rfl

/-- Every weakly fair execution terminates without a fault, the result array at the factored product of the
    arguments as launched, the arguments unchanged. -/
theorem run : θ_run defs (onTc (τ := τ) (main (F := Ideal))) ⟨m, fun _ => 0, ρ⟩ (fun r => ∀ c : Dev nD,
      r.2.mem ((c.tc : Thread nD τ).loc main_v1)
        = Cert.LowRank.factored (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (RunNamed.run m ρ)

end Cert.KernelIdeal.Whole

end
-- ==== Proof.RefValue.lean ====
/-
  The reference's result as one function of its arguments: it first forms W = Uᵀ · V, an [8192, 8192] matrix, and
  then W · inputs, so its entry (l, b) is Σ_m (Σ_r U[r, l] · V[r, m]) · inputs[m, b].
-/
import proofs.«158920_j44306882626256_2_alg».proof.Proof.Gen.ReferenceIdeal.Read
import proofs.«158920_j44306882626256_2_alg».proof.Proof.LowRankSpec

noncomputable section

open Idealize.ShloMosaic Idealize.ShloMosaic.TcCoe Idealize.SL.Sem
open Idealize.ShloMosaic.ValueIdx (ix2 eq_ix2)

namespace Cert.ReferenceIdeal.RefValue

open Cert.ReferenceIdeal Cert.ReferenceIdeal.Read

/-- The two matrix products of the reference, read at an entry. -/
theorem ref_eq (x0 : (⟨S8192x4096, .f32⟩ : BufTy).Contents (Elt Ideal)) (x1 x2 : (⟨S8x8192, .f32⟩ : BufTy).Contents (Elt Ideal)) :
    val_main_v1 (F := Ideal) x0 x1 x2 = Cert.LowRank.direct x0 x1 x2 := by
  funext i
  rw [val_main_v1_apply]
  unfold Cert.LowRank.direct
  refine Finset.sum_congr rfl fun k _ => ?_
  rw [val_main_v0_apply]
  have e0 : ridx_main_v1 i k = ix2 k (⟨(i 1).val, (i 1).isLt⟩ : Fin 4096) := funext fun a => by
    match a with
    | ⟨0, _⟩ => rfl
    | ⟨1, _⟩ => rfl
  have el : ∀ r : Fin 8, lidx_main_v0 (lidx_main_v1 i k) r = ix2 r (⟨(i 0).val, (i 0).isLt⟩ : Fin 8192) := fun r => funext fun a => by
    match a with
    | ⟨0, _⟩ => rfl
    | ⟨1, _⟩ => rfl
  have er : ∀ r : Fin 8, ridx_main_v0 (lidx_main_v1 i k) r = ix2 r k := fun r => funext fun a => by
    match a with
    | ⟨0, _⟩ => rfl
    | ⟨1, _⟩ => rfl
  rw [e0]
  exact congrArg (· * x0 (ix2 k (⟨(i 1).val, (i 1).isLt⟩ : Fin 4096))) (Finset.sum_congr rfl fun r _ => by rw [el r, er r])

end Cert.ReferenceIdeal.RefValue

end
-- ==== Proof.FiniteEntries.lean ====
/-
  From the precondition to real entries.

  The precondition says, of each of the three float arrays, that every entry's absolute value is below +∞ (the three
  `all`s joined by `and`). Over the extended reals an entry x with max x (−x) < ⊤ is neither ⊤ nor ⊥, so it is a
  real number.
-/
import proofs.«158920_j44306882626256_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- The float word 0x7F800000 is +∞. -/
theorem inf_word : Ideal.ofBits .f32 0x7F800000#32 = ⊤ := by
  simp [Ideal.ofBits, Ideal.ieee]

/-- A one-bit word made from a truth value is 1 exactly when the value is true. -/
theorem ofBool_eq_one (b : Bool) : BitVec.ofBool b = 1#1 ↔ b = true := by cases b <;> decide

/-- An extended real whose absolute value compares below +∞ is a real number. -/
theorem real_of_abs_lt (x : EReal) (h : Ideal.cmp .olt (max x (-x)) (Ideal.ofBits .f32 0x7F800000#32) = 1#1) :
    ∃ a : ℝ, x = (a : EReal) := by
  rw [inf_word] at h
  have h' : max x (-x) < ⊤ := by
    unfold Ideal.cmp at h
    exact of_decide_eq_true ((ofBool_eq_one _).1 h)
  induction x using EReal.rec with
  | bot => simp at h'
  | coe a => exact ⟨a, rfl⟩
  | top => simp at h'

variable [Facts]

/-- Under the precondition every entry of the three arrays is a real number. -/
theorem real_of_pre (x : FVec Ideal S8192x4096 .f32) (u v : FVec Ideal S8x8192 .f32)
    (h : fn (F := Ideal) x u v = fun _ => 1#1) :
    (∀ i, ∃ a : ℝ, x i = (a : EReal)) ∧ (∀ i, ∃ a : ℝ, u i = (a : EReal)) ∧ (∀ i, ∃ a : ℝ, v i = (a : EReal)) := by
  have h0 := congrFun h ValueIdx.ix0
  dsimp only [fn] at h0
  obtain ⟨h01, hv⟩ := IntOp.andi_eq_one.1 h0
  obtain ⟨hx, hu⟩ := IntOp.andi_eq_one.1 h01
  exact ⟨fun i => real_of_abs_lt _ (Host.reduce_andi_all _ _ _ _ _ hx i),
    fun i => real_of_abs_lt _ (Host.reduce_andi_all _ _ _ _ _ hu i),
    fun i => real_of_abs_lt _ (Host.reduce_andi_all _ _ _ _ _ hv i)⟩

end Cert.Finite

end
-- ==== Proof.lean ====
/-
  A rank-8 weight matrix applied to a batch of columns: the kernel against its reference, over the extended reals.

  With U, V : [8, 8192] and inputs : [8192, 4096], the reference forms W = Uᵀ · V (an [8192, 8192] matrix) and then
  W · inputs; the kernel never forms W: a first launch computes T = V · inputs ([8, 4096], accumulated over 16 tiles
  of the long axis), a second launch computes Uᵀ · T. Entry by entry,
      kernel[l, b]    = Σ_r U[r, l] · (Σ_m V[r, m] · inputs[m, b]),
      reference[l, b] = Σ_m (Σ_r U[r, l] · V[r, m]) · inputs[m, b],
  and the two are equal by distributing the products over the sums and exchanging the sums. Over the extended reals
  distributivity needs the entries to be real numbers, which is what the precondition (every input finite) gives.
  Rounding the matmul operands to bf16 is the identity over the extended reals, and the idealization rewrote no
  operation, so the preservation claim has nothing to state.

  The three frame claims: both kernel programs by their generated frames; the reference by its generated run.
-/
import proofs.«158920_j44306882626256_2_alg».proof.Defs
import proofs.«158920_j44306882626256_2_alg».proof.Proof.Gen.Kernel
import proofs.«158920_j44306882626256_2_alg».proof.Proof.Gen.Kernel.Skeleton
import proofs.«158920_j44306882626256_2_alg».proof.Proof.Gen.Kernel.Launch
import proofs.«158920_j44306882626256_2_alg».proof.Proof.Gen.Kernel.Points
import proofs.«158920_j44306882626256_2_alg».proof.Proof.Gen.Kernel.Frame
import proofs.«158920_j44306882626256_2_alg».proof.Proof.Gen.KernelIdeal
import proofs.«158920_j44306882626256_2_alg».proof.Proof.Gen.KernelIdeal.Skeleton
import proofs.«158920_j44306882626256_2_alg».proof.Proof.Gen.KernelIdeal.Launch
import proofs.«158920_j44306882626256_2_alg».proof.Proof.Gen.KernelIdeal.Points
import proofs.«158920_j44306882626256_2_alg».proof.Proof.Gen.KernelIdeal.Frame
import proofs.«158920_j44306882626256_2_alg».proof.Proof.Gen.ReferenceIdeal
import proofs.«158920_j44306882626256_2_alg».proof.Proof.Gen.Pre_finite_inputs
import proofs.«158920_j44306882626256_2_alg».proof.Proof.Gen.ReferenceIdeal.Run
import proofs.«158920_j44306882626256_2_alg».proof.Proof.Gen.ReferenceIdeal.Read
import proofs.«158920_j44306882626256_2_alg».proof.Proof.KernelWhole
import proofs.«158920_j44306882626256_2_alg».proof.Proof.RefValue
import proofs.«158920_j44306882626256_2_alg».proof.Proof.FiniteEntries
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel's result array ends at the factored product of the arguments and the
    reference's at the direct product of arguments that agree with them; under the precondition every entry is a
    real number, where the two products are equal. -/
theorem algebraic : Cert.algebraic_KernelIdeal_ReferenceIdeal := by
  intro m ρ m' ρ' hpre hagree
  refine ⟨fun c => Cert.LowRank.factored (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2.1, (hagree c).2.2]
  obtain ⟨hx, hu, hv⟩ := Cert.Finite.real_of_pre _ _ _ (hpre c)
  exact (Cert.LowRank.factored_eq_direct _ _ _ hx hu hv).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
